-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x128 .f32) (main_arg1 : FVec F S10000x10000 .f32) (main_arg2 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S128x128 : Shape := ⟨2, ![128, 128]⟩
abbrev S200x10000 : Shape := ⟨2, ![200, 10000]⟩
abbrev S400x128 : Shape := ⟨2, ![400, 128]⟩
abbrev S200x128 : Shape := ⟨2, ![200, 128]⟩

abbrev nBuf : Space → Nat
  | .hbm => 4
  | .vmem => 9
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .local _ .vmem, ⟨0, _⟩ => ⟨S10000x128, .f32⟩
  | .local _ .vmem, ⟨1, _⟩ => ⟨S200x10000, .f32⟩
  | .local _ .vmem, ⟨2, _⟩ => ⟨S200x10000, .f32⟩
  | .local _ .vmem, ⟨3, _⟩ => ⟨S200x10000, .f32⟩
  | .local _ .vmem, ⟨4, _⟩ => ⟨S200x10000, .f32⟩
  | .local _ .vmem, ⟨5, _⟩ => ⟨S128x128, .f32⟩
  | .local _ .vmem, ⟨6, _⟩ => ⟨S400x128, .f32⟩
  | .local _ .vmem, ⟨7, _⟩ => ⟨S400x128, .f32⟩
  | .local _ .vmem, ⟨8, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S200x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S200x10000_S200x10000_0_0 : ∀ a, (![0, 0] : Fin 2 → Nat) a + S200x10000.size a ≤ S200x10000.size a
  h_S200x10000 : 0 < S200x10000.numel
  inb_S400x128_S200x128_0_0 : ∀ a, (![0, 0] : Fin 2 → Nat) a + S200x128.size a ≤ S400x128.size a
  h_S200x128 : 0 < S200x128.numel
  inb_S400x128_S200x128_200_0 : ∀ a, (![200, 0] : Fin 2 → Nat) a + S200x128.size a ≤ S400x128.size a
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x10000.size a ≤ S10000x10000.size a
  hwx0_2 : ∀ i : grid0.Coords, EltTy.bits .f32 = 32 ∨ (Rect.block (s := S10000x10000) S200x10000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S200x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .hbm, ⟨4, _⟩ => ⟨S10000x128, .f32⟩
  | .hbm, ⟨5, _⟩ => ⟨S_, .f32⟩
  | .hbm, ⟨6, _⟩ => ⟨S10000x128, .f32⟩
  | .hbm, ⟨7, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.K.Setup.lean ====
/-
  One graph-convolution layer, out = max(A · (x · W), 0), computed 400 rows of A at a time: the grid has 25 points,
  point t reads the two adjacent 200-row blocks 2t and 2t+1 of A through two windows on the SAME array, keeps the
  product x · W in a scratch buffer it fills at the first point only, and writes rows 400t … 400t+399 of the result.
  This module fixes what the run of the kernel's body is stated over: the arrays as the region finds them, each
  window's block at a point, the body's one branch condition in closed form, and the staging and scratch memrefs.
-/
import proofs.«144753_g33036888441476_cont_sun_m_698_10_alg».proof.Proof.Gen.Kernel.Launch
import proofs.«144753_g33036888441476_cont_sun_m_698_10_alg».proof.Proof.Gen.Kernel.Skeleton
import proofs.«144753_g33036888441476_cont_sun_m_698_10_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry, and the windows' blocks -/

/-- The program is the region alone, so the region finds every buffer at its launch contents. -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the entry contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is the entry contents and whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is the entry contents and whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof data
    whose array is the entry contents and whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch condition -/

/-- The condition under which the body fills the scratch buffer with x · W: the grid coordinate is zero. -/
abbrev cond0 (i : grid0.Coords) : Prop := (Scalar.cmpi .ne (Scalar.extui (Scalar.cmpi .eq (BitVec.ofNat 32 (i 0).val) 0#32)) 0#32) = 1#1
/-- It holds at the first point only. -/
theorem hcond0 : ∀ t : Fin cfg0.N, cond0 (grid0.coords t) ↔ t.val = 0 :=
  (by decide +kernel : ∀ t : Fin grid0.N, cond0 (grid0.coords t) ↔ t.val = 0)

/-- No window is idle at any point. -/
theorem liveAt : ∀ (w : Fin cfg0.W) (t : Fin cfg0.N), cfg0.idle w (grid0.coords t) = false := fun _ _ => rfl

/-! ## The staging and scratch memrefs -/

/-- One staging buffer of the output window, through which its contents are stated. -/
abbrev VO : View sig .tc .vmem S400x128 .f32 := (Memref.whole cc0_stg4_0 : Memref sig .tc .vmem S400x128 .f32).view
abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S200x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S200x10000 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S400x128 .f32 := win0_4.stage (cfg0.slots t 4)
abbrev hs4 (t : Fin cfg0.N) : (ms4 t).IsWhole := hstage0_4 ((cfg0.slots t 4).cast nbuf0_4)
/-- The scratch operand holding x · W. -/
abbrev scM : Memref sig .tc .vmem S10000x128 .f32 := Memref.whole cc0_scratch0
abbrev VS : View sig .tc .vmem S10000x128 .f32 := scM.view

/-- The region invariant of a kernel that names nothing between points, with the scratch operand as a memref owned
    at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The program is the region alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main (fun c => rfl)

end Cert.Kernel.Layer

end
-- ==== Proof.K.RunA.lean ====
/-
  The body at the first grid point, where its branch is taken: it multiplies x by W into the scratch buffer, reads the
  product back, and stores max(A-block · product, 0) for each of its two blocks of A into the two halves of the output
  buffer. Stated on any whole memrefs; the pieces the stores leave are found by running the body.
-/
import proofs.«144753_g33036888441476_cont_sun_m_698_10_alg».proof.Proof.K.Setup

set_option maxRecDepth 16384

noncomputable section

namespace Cert.Kernel.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the stores leave in the output's staging memref and in the scratch, as pieces (last first), when the
    branch is taken, with the proof that from the inputs' memrefs at their contents, the output's and the scratch at
    anything, the body runs to a continuation holding the inputs as they were and those pieces written. -/
noncomputable def kernelRunA (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S400x128 .f32) (harg5 : arg5.IsWhole) (arg6 : Memref sig .tc .vmem S10000x128 .f32) (harg6 : arg6.IsWhole) (hc0 : cond0 i)
    (x0 : Vec F S10000x128 .f32) (x1 : Vec F S200x10000 .f32) (x2 : Vec F S200x10000 .f32) (x3 : Vec F S128x128 .f32) :
    Σ' (L4 : List (View.Piece (Elt F) S400x128 .f32)), { LS : List (View.Piece (Elt F) S10000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS)) -∗ K ⟨⟩))
          ⊢ wp frame (wpE (defs₀ (F := F)) Variants.none c none) E (cc0__gcn_kernel i arg1 harg1 arg2 harg2 arg3 harg3 arg4 harg4 arg5 harg5 arg6 harg6) K } := by
  refine ⟨?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds, %fs, -, HS⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS

end Cert.Kernel.Layer

end
-- ==== Proof.K.RunB.lean ====
/-
  The body at every later grid point, where its branch is not taken: the scratch buffer still holds x · W, which it
  reads and leaves as it is, and it stores max(A-block · product, 0) for each of its two blocks of A into the two
  halves of the output buffer.
-/
import proofs.«144753_g33036888441476_cont_sun_m_698_10_alg».proof.Proof.K.RunA

set_option maxRecDepth 16384

noncomputable section

namespace Cert.Kernel.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the stores leave in the output's staging memref, as pieces (last first), when the branch is not taken, with
    the proof that from the inputs' memrefs and the scratch at their contents, the output's at anything, the body runs
    to a continuation holding the inputs and the scratch as they were and those pieces written. -/
noncomputable def kernelRunB (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S400x128 .f32) (harg5 : arg5.IsWhole) (arg6 : Memref sig .tc .vmem S10000x128 .f32) (harg6 : arg6.IsWhole) (hc0 : ¬cond0 i)
    (x0 : Vec F S10000x128 .f32) (x1 : Vec F S200x10000 .f32) (x2 : Vec F S200x10000 .f32) (x3 : Vec F S128x128 .f32) (xs : Vec F S10000x128 .f32) :
    { L4 : List (View.Piece (Elt F) S400x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xs) -∗ K ⟨⟩))
          ⊢ wp frame (wpE (defs₀ (F := F)) Variants.none c none) E (cc0__gcn_kernel i arg1 harg1 arg2 harg2 arg3 harg3 arg4 harg4 arg5 harg5 arg6 harg6) K } := by
  refine ⟨?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg1.eq_unread hf0; obtain rfl := harg2.eq_unread hf1; obtain rfl := harg3.eq_unread hf2; obtain rfl := harg4.eq_unread hf3; obtain rfl := harg6.eq_unread hfs
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; isplitr; · ipureintro; exact harg6.read_unread _
    iexact HS

end Cert.Kernel.Layer

end
-- ==== Proof.K.Frame.lean ====
/-
  The kernel's run over the whole grid. After point t the output's staging buffer holds the two halves the body
  stored there, and the scratch buffer holds x · W: stored at the first point, read and left alone at every later one.
  From the body's two runs this module states what both buffers hold point by point, the region invariant that
  carries the scratch from point to point, the body obligation, and the run of the program. The two windows on A
  each hold half of the array's share, so that both may read it at once.
-/
import proofs.«144753_g33036888441476_cont_sun_m_698_10_alg».proof.Proof.K.RunB

set_option maxRecDepth 16384

noncomputable section

namespace Cert.Kernel.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The first point's stores tile the output's block, -/
theorem coverA (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S400x128 .f32) (harg5 : arg5.IsWhole) (arg6 : Memref sig .tc .vmem S10000x128 .f32) (harg6 : arg6.IsWhole) (hc0 : cond0 i)
    (x0 : Vec F S10000x128 .f32) (x1 : Vec F S200x10000 .f32) (x2 : Vec F S200x10000 .f32) (x3 : Vec F S128x128 .f32) (y : S400x128.Idx) :
    ∃ pc ∈ (kernelRunA c i arg1 harg1 arg2 harg2 arg3 harg3 arg4 harg4 arg5 harg5 arg6 harg6 hc0 x0 x1 x2 x3).1, y ∈ pc.1.set :=
  View.cover_of_tiledL (kernelRunA c i arg1 harg1 arg2 harg2 arg3 harg3 arg4 harg4 arg5 harg5 arg6 harg6 hc0 x0 x1 x2 x3).1 S200x128.size (by sl_kernel_rfl) y

/-- and leave in it their pieces read back. -/
def outA (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S400x128 .f32) (harg5 : arg5.IsWhole) (arg6 : Memref sig .tc .vmem S10000x128 .f32) (harg6 : arg6.IsWhole) (hc0 : cond0 i)
    (x0 : Vec F S10000x128 .f32) (x1 : Vec F S200x10000 .f32) (x2 : Vec F S200x10000 .f32) (x3 : Vec F S128x128 .f32) : Vec F S400x128 .f32 :=
  VO.read (Elt F) (VO.writes (Elt F) VO.junk (kernelRunA c i arg1 harg1 arg2 harg2 arg3 harg3 arg4 harg4 arg5 harg5 arg6 harg6 hc0 x0 x1 x2 x3).1)

/-- The first point's one store into the scratch covers it, -/
theorem scoverA (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S400x128 .f32) (harg5 : arg5.IsWhole) (arg6 : Memref sig .tc .vmem S10000x128 .f32) (harg6 : arg6.IsWhole) (hc0 : cond0 i)
    (x0 : Vec F S10000x128 .f32) (x1 : Vec F S200x10000 .f32) (x2 : Vec F S200x10000 .f32) (x3 : Vec F S128x128 .f32) (y : S10000x128.Idx) :
    ∃ pc ∈ (kernelRunA c i arg1 harg1 arg2 harg2 arg3 harg3 arg4 harg4 arg5 harg5 arg6 harg6 hc0 x0 x1 x2 x3).2.1, y ∈ pc.1.set :=
  View.cover_of_tiledL (kernelRunA c i arg1 harg1 arg2 harg2 arg3 harg3 arg4 harg4 arg5 harg5 arg6 harg6 hc0 x0 x1 x2 x3).2.1 S10000x128.size (by sl_kernel_rfl) y

/-- and leaves in it that piece read back. -/
def soutA (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S400x128 .f32) (harg5 : arg5.IsWhole) (arg6 : Memref sig .tc .vmem S10000x128 .f32) (harg6 : arg6.IsWhole) (hc0 : cond0 i)
    (x0 : Vec F S10000x128 .f32) (x1 : Vec F S200x10000 .f32) (x2 : Vec F S200x10000 .f32) (x3 : Vec F S128x128 .f32) : Vec F S10000x128 .f32 :=
  VS.read (Elt F) (VS.writes (Elt F) VS.junk (kernelRunA c i arg1 harg1 arg2 harg2 arg3 harg3 arg4 harg4 arg5 harg5 arg6 harg6 hc0 x0 x1 x2 x3).2.1)

/-- A later point's stores tile the output's block, -/
theorem coverB (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S400x128 .f32) (harg5 : arg5.IsWhole) (arg6 : Memref sig .tc .vmem S10000x128 .f32) (harg6 : arg6.IsWhole) (hc0 : ¬cond0 i)
    (x0 : Vec F S10000x128 .f32) (x1 : Vec F S200x10000 .f32) (x2 : Vec F S200x10000 .f32) (x3 : Vec F S128x128 .f32) (xs : Vec F S10000x128 .f32) (y : S400x128.Idx) :
    ∃ pc ∈ (kernelRunB c i arg1 harg1 arg2 harg2 arg3 harg3 arg4 harg4 arg5 harg5 arg6 harg6 hc0 x0 x1 x2 x3 xs).1, y ∈ pc.1.set :=
  View.cover_of_tiledL (kernelRunB c i arg1 harg1 arg2 harg2 arg3 harg3 arg4 harg4 arg5 harg5 arg6 harg6 hc0 x0 x1 x2 x3 xs).1 S200x128.size (by sl_kernel_rfl) y

/-- and leave in it their pieces read back. -/
def outB (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S400x128 .f32) (harg5 : arg5.IsWhole) (arg6 : Memref sig .tc .vmem S10000x128 .f32) (harg6 : arg6.IsWhole) (hc0 : ¬cond0 i)
    (x0 : Vec F S10000x128 .f32) (x1 : Vec F S200x10000 .f32) (x2 : Vec F S200x10000 .f32) (x3 : Vec F S128x128 .f32) (xs : Vec F S10000x128 .f32) : Vec F S400x128 .f32 :=
  VO.read (Elt F) (VO.writes (Elt F) VO.junk (kernelRunB c i arg1 harg1 arg2 harg2 arg3 harg3 arg4 harg4 arg5 harg5 arg6 harg6 hc0 x0 x1 x2 x3 xs).1)

/-! ## What the output's buffer and the scratch hold after each point -/

/-- After point `n`: the output's staging buffer, and the scratch. The first point fills the scratch; every later
    point hands on what it found there. -/
def outsAt (c : Dev nD) : (n : ℕ) → n < cfg0.N → Vec F S400x128 .f32 × Vec F S10000x128 .f32
  | 0, hn => (outA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) ((hcond0 ⟨0, hn⟩).mpr rfl) (iblk m c 0 ⟨0, hn⟩) (iblk m c 1 ⟨0, hn⟩) (iblk m c 2 ⟨0, hn⟩) (iblk m c 3 ⟨0, hn⟩),
      soutA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) ((hcond0 ⟨0, hn⟩).mpr rfl) (iblk m c 0 ⟨0, hn⟩) (iblk m c 1 ⟨0, hn⟩) (iblk m c 2 ⟨0, hn⟩) (iblk m c 3 ⟨0, hn⟩))
  | n + 1, hn => (outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => Nat.succ_ne_zero n ((hcond0 ⟨n + 1, hn⟩).mp h)) (iblk m c 0 ⟨n + 1, hn⟩) (iblk m c 1 ⟨n + 1, hn⟩) (iblk m c 2 ⟨n + 1, hn⟩) (iblk m c 3 ⟨n + 1, hn⟩) (outsAt c n (Nat.lt_of_succ_lt hn)).2,
      (outsAt c n (Nat.lt_of_succ_lt hn)).2)

theorem outsAt_first (c : Dev nD) (t : Fin cfg0.N) (h0 : t.val = 0) :
    outsAt m c t.val t.isLt = (outA c (grid0.coords t) (ms0 t) (hs0 t) (ms1 t) (hs1 t) (ms2 t) (hs2 t) (ms3 t) (hs3 t) (ms4 t) (hs4 t) scM (Memref.isWhole_whole _) ((hcond0 t).mpr h0) (iblk m c 0 t) (iblk m c 1 t) (iblk m c 2 t) (iblk m c 3 t),
      soutA c (grid0.coords t) (ms0 t) (hs0 t) (ms1 t) (hs1 t) (ms2 t) (hs2 t) (ms3 t) (hs3 t) (ms4 t) (hs4 t) scM (Memref.isWhole_whole _) ((hcond0 t).mpr h0) (iblk m c 0 t) (iblk m c 1 t) (iblk m c 2 t) (iblk m c 3 t)) := by
  obtain ⟨n, hn⟩ := t
  cases n with
  | zero => exact rfl
  | succ n => exact absurd h0 (Nat.succ_ne_zero n)

theorem outsAt_later (c : Dev nD) (t : Fin cfg0.N) (h0 : ¬t.val = 0) :
    outsAt m c t.val t.isLt = (outB c (grid0.coords t) (ms0 t) (hs0 t) (ms1 t) (hs1 t) (ms2 t) (hs2 t) (ms3 t) (hs3 t) (ms4 t) (hs4 t) scM (Memref.isWhole_whole _) (fun h => h0 ((hcond0 t).mp h)) (iblk m c 0 t) (iblk m c 1 t) (iblk m c 2 t) (iblk m c 3 t) (outsAt m c (t.val - 1) (Nat.lt_of_le_of_lt (Nat.sub_le _ _) t.isLt)).2,
      (outsAt m c (t.val - 1) (Nat.lt_of_le_of_lt (Nat.sub_le _ _) t.isLt)).2) := by
  obtain ⟨n, hn⟩ := t
  cases n with
  | zero => exact absurd rfl h0
  | succ n => exact rfl

/-! ## The region invariant -/

/-- The scoped buffers the pipeline does not stage are the scratch alone. -/
theorem scoped_eq (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

/-- Before the first point the scratch holds anything; before any later point, what the point before left. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => owns (c : Thread nD τ) scM fullShare ((outsAt m c n hn).2)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = owns (c : Thread nD τ) scM fullShare ((outsAt m c n hn).2) := rfl

theorem PhiS_pos (c : Dev nD) (n : ℕ) (h : n ≤ cfg0.N) (hz : n ≠ 0) :
    PhiS m c n h = owns (c : Thread nD τ) scM fullShare ((outsAt m c (n - 1) (by omega)).2) := by
  cases n with
  | zero => exact absurd rfl hz
  | succ n => rfl

/-! ## The proof data -/

/-- The arrays as the region finds them; after the body each input's buffer at its block and the output's at
    `outsAt`; the invariant `PhiS`; nothing owed; the two windows on A at one half of its share each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
  Φ t := PhiS m c t.val (Nat.le_of_lt_succ t.isLt)
  q w := match w with
    | ⟨1, _⟩ => fullShare.left
    | ⟨2, _⟩ => fullShare.right
    | _ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t.val t.isLt).1 := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0 (c : Dev nD) (t : Fin cfg0.N) :
    (dats m 0 c).leavesExact 0 t = owns (c : Thread nD τ) (ms0 t) fullShare ((dats m 0 c).after 0 t) := by
  unfold Dat.leavesExact; rw [liveAt 0 t]
theorem leaves1 (c : Dev nD) (t : Fin cfg0.N) :
    (dats m 0 c).leavesExact 1 t = owns (c : Thread nD τ) (ms1 t) fullShare ((dats m 0 c).after 1 t) := by
  unfold Dat.leavesExact; rw [liveAt 1 t]
theorem leaves2 (c : Dev nD) (t : Fin cfg0.N) :
    (dats m 0 c).leavesExact 2 t = owns (c : Thread nD τ) (ms2 t) fullShare ((dats m 0 c).after 2 t) := by
  unfold Dat.leavesExact; rw [liveAt 2 t]
theorem leaves3 (c : Dev nD) (t : Fin cfg0.N) :
    (dats m 0 c).leavesExact 3 t = owns (c : Thread nD τ) (ms3 t) fullShare ((dats m 0 c).after 3 t) := by
  unfold Dat.leavesExact; rw [liveAt 3 t]
theorem leaves4 (c : Dev nD) (t : Fin cfg0.N) :
    (dats m 0 c).leavesExact 4 t = owns (c : Thread nD τ) (ms4 t) fullShare ((dats m 0 c).after 4 t) := by
  unfold Dat.leavesExact; rw [liveAt 4 t]

set_option maxHeartbeats 4800000 in
/-- The body at any point: the inputs' buffers hold their blocks; at the first point the scratch holds anything and
    the body leaves x · W in it, at a later point the body finds there what the point before left and leaves it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, after0, after1, after2, after3, after4]
  by_cases hz : t.val = 0
  · rw [outsAt_first m c t hz]
    unfold outA soutA; (try dsimp only)
    rw [PhiS_castSucc m c t, PhiS_zero m c _ _ hz, scoped_eq]
    iintro ⟨HS, Ho, ⟨%d0, H0⟩, ⟨%d1, H1⟩, ⟨%d2, H2⟩, ⟨%d3, H3⟩, ⟨%d4, H4⟩⟩
    iapply ((kernelRunA c (grid0.coords t) _ _ _ _ _ _ _ _ _ _ _ _ ((hcond0 t).mpr hz) (iblk m c 0 t) (iblk m c 1 t) (iblk m c 2 t) (iblk m c 3 t)).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS]
    · unfold owns; iexists _; isplitr
      swap; · iexact HS
      ipureintro; exact View.read_writes_of_cover _ _ _ _ _ (scoverA c _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverA c _ _ _ _ _ _ _ _ _ _ _ _ _ _ _ _ _ _)
  · rw [outsAt_later m c t hz]
    unfold outB; (try dsimp only)
    rw [PhiS_castSucc m c t, PhiS_pos m c _ _ hz]
    iintro ⟨HS, Ho, ⟨%d0, H0⟩, ⟨%d1, H1⟩, ⟨%d2, H2⟩, ⟨%d3, H3⟩, ⟨%d4, H4⟩⟩
    iapply ((kernelRunB c (grid0.coords t) _ _ _ _ _ _ _ _ _ _ _ _ (fun h => hz ((hcond0 t).mp h)) (iblk m c 0 t) (iblk m c 1 t) (iblk m c 2 t) (iblk m c 3 t) _).2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, HS⟩
    isplitl [HS]; · iexact HS
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverB c _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

end Cert.Kernel.Layer

end
-- ==== Proof.K.Run.lean ====
/-
  The launch. The program is one region; its five windows stand on four arrays, the two windows that read A sharing
  one. At the region's entry A's buffer, held whole, is split into its two half shares, one per window, so that both
  windows may read A while neither may write it; the other arrays are held whole. The scratch enters the invariant at
  anything and is forgotten at the end. Every array ends at what the pipeline's write-backs make of it: an input as
  it was, the result overwritten block by block with what the body left.
-/
import proofs.«144753_g33036888441476_cont_sun_m_698_10_alg».proof.Proof.K.Frame

set_option maxRecDepth 16384

noncomputable section

namespace Cert.Kernel.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The four distinct buffers behind the five windows' arrays, one by one. -/
theorem arrBufs_list (Φ : Ref sig .tc → sProp 𝕄) :
    bigSep (Finset.univ.image (Pipeline.arrRef spec0)) Φ = iprop(Φ main_arg0 ∗ Φ main_arg1 ∗ Φ main_arg2 ∗ Φ main_v0) :=
  Idealize.SL.BI.bigSep_eq_bigSepL_of_eq [main_arg0, main_arg1, main_arg2, main_v0] (by decide) (by decide) Φ

/-- A window's array is a whole buffer, so holding it is holding that buffer. -/
theorem arr_at (c : Dev nD) (w : Fin cfg0.W) (q : PosShare TreeShare) (f : Buf (Elt F) ((cfg0.win w).arr.view.loc (c.tc : Thread nD τ))) :
    (((cfg0.win w).arr.view.loc (c.tc : Thread nD τ)) ↦[(cfg0.win w).arr.view.set]{q} f : sProp 𝕄)
      = (((c.tc : Thread nD τ).loc (Pipeline.arrRef spec0 w)) ↦{q} f : sProp 𝕄) := by
  rw [(arr_whole0 w).set_eq_univ]

/-- The windows' arrays at entry, one by one: A's two windows at a half share each, the others whole. -/
theorem arrays_entry (c : Dev nD) :
    (dats m 0 c).arrays ((dats m 0 c).arrAt · 0)
      = iprop((((c.tc : Thread nD τ).loc main_arg0) ↦{fullShare} V m c main_arg0)
          ∗ (((c.tc : Thread nD τ).loc main_arg1) ↦{fullShare.left} V m c main_arg1)
          ∗ (((c.tc : Thread nD τ).loc main_arg1) ↦{fullShare.right} V m c main_arg1)
          ∗ (((c.tc : Thread nD τ).loc main_arg2) ↦{fullShare} V m c main_arg2)
          ∗ (((c.tc : Thread nD τ).loc main_v0) ↦{fullShare} V m c main_v0)) := by
  unfold Dat.arrays
  rw [bigSep_W0, arr_at c 0, arr_at c 1, arr_at c 2, arr_at c 3, arr_at c 4]
  rfl

/-- The arrays' buffers, each whole at the full share at its entry contents, make the windows' arrays at entry: A's
    buffer in two half shares, one for each window on it. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrays_entry]
  unfold Pipeline.arrBufs
  rw [arrBufs_list]
  iintro ⟨H0, H1, H2, H3⟩
  ihave H1' := (pointsTo_share (PosShare.mem_left_op_right fullShare)).1 $$ H1
  icases H1' with ⟨H1a, H1b⟩
  isplitl [H0]; · iexact H0
  isplitl [H1a]; · iexact H1a
  isplitl [H1b]; · iexact H1b
  isplitl [H2]; · iexact H2
  iexact H3

/-- What the launch hands the region is the invariant before the first point, -/
theorem hin (c : Dev nD) :
    iprop(emp ∗ Pipeline.scopedRest (Ix := Unit) (Name := ℕ) (U := UR sig nD τ) (Lvl := ℕ) (Val := Elt F) spec0 c) ⊢ (dats m 0 c).Φ 0 := by
  rw [show (dats m 0 c).Φ 0 = PhiS m c 0 (Nat.zero_le _) from rfl, PhiS_zero m c 0 _ rfl]
  iintro ⟨-, H⟩; iexact H

/-- and after the last point the invariant gives the scratch back, its contents forgotten. -/
theorem hout (c : Dev nD) :
    (dats m 0 c).Φ (Fin.last cfg0.N) ⊢ iprop(emp ∗ Pipeline.scopedRest (Ix := Unit) (Name := ℕ) (U := UR sig nD τ) (Lvl := ℕ) (Val := Elt F) spec0 c) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 25 := N_0; omega), scoped_eq]
  iintro H; isplitr; · iempintro
  iexists _; iexact H

/-- Every buffer that is not scoped is an array of the pipeline. -/
theorem hX (c : Dev nD) :
    (Pipeline.unscopedRest (Ix := Unit) (Name := ℕ) (U := UR sig nD τ) (Lvl := ℕ) spec0 c (V m c) : sProp 𝕄) ⊢ iprop(emp ∗ emp) := by
  rw [unscopedRest0_eq]; iintro -; isplitr <;> iempintro

set_option backward.isDefEq.respectTransparency.types false in
/-- At the compiled mesh, for any float values, from any memory with zero counters: every weakly fair execution of the
    program terminates, and in every final state each window's array holds what the write-backs leave in it. -/
theorem run_main : θ_run defs (onTc (τ := τ) (main (F := F))) (s₀ m ρ)
    (fun r => ∀ (c : Dev nD) (w : Fin cfg0.W), r.2.mem ((cfg0.win w).arr.view.loc (c : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := BI.Entails.refl _)
    (V := V m) (hmain := hmain m Variants.none) (hsplit := hsplit m)
    (X := fun _ => iprop(emp)) (Y := fun _ => iprop(emp)) (Z := fun _ => iprop(emp))
    (hX := hX m) (hin := hin m) (hout := hout m)
    (QY := fun _ _ => True)
    (hY := fun c s' => by
      iintro ⟨-, -, HSI⟩; imodintro
      isplitr; · ipureintro; trivial
      iexact HSI)
    (hQ := fun _ h c w => (h c).1 w)

/-- The argument arrays end as they began: each is an input window's array, which no write-back touches. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c 0).trans ((dats m 0 c).arrAt_in 0 rfl _), (h c 1).trans ((dats m 0 c).arrAt_in 1 rfl _), (h c 3).trans ((dats m 0 c).arrAt_in 3 rfl _)⟩)
    (run_main m ρ)

end Cert.Kernel.Layer

end
-- ==== Proof.KI.Setup.lean ====
/-
  One graph-convolution layer, out = max(A · (x · W), 0), computed 400 rows of A at a time: the grid has 25 points,
  point t reads the two adjacent 200-row blocks 2t and 2t+1 of A through two windows on the SAME array, keeps the
  product x · W in a scratch buffer it fills at the first point only, and writes rows 400t … 400t+399 of the result.
  This module fixes what the run of the kernel's body is stated over: the arrays as the region finds them, each
  window's block at a point, the body's one branch condition in closed form, and the staging and scratch memrefs.
-/
import proofs.«144753_g33036888441476_cont_sun_m_698_10_alg».proof.Proof.Gen.KernelIdeal.Launch
import proofs.«144753_g33036888441476_cont_sun_m_698_10_alg».proof.Proof.Gen.KernelIdeal.Skeleton
import proofs.«144753_g33036888441476_cont_sun_m_698_10_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry, and the windows' blocks -/

/-- The program is the region alone, so the region finds every buffer at its launch contents. -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the entry contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is the entry contents and whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is the entry contents and whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof data
    whose array is the entry contents and whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch condition -/

/-- The condition under which the body fills the scratch buffer with x · W: the grid coordinate is zero. -/
abbrev cond0 (i : grid0.Coords) : Prop := (Scalar.cmpi .ne (Scalar.extui (Scalar.cmpi .eq (BitVec.ofNat 32 (i 0).val) 0#32)) 0#32) = 1#1
/-- It holds at the first point only. -/
theorem hcond0 : ∀ t : Fin cfg0.N, cond0 (grid0.coords t) ↔ t.val = 0 :=
  (by decide +kernel : ∀ t : Fin grid0.N, cond0 (grid0.coords t) ↔ t.val = 0)

/-- No window is idle at any point. -/
theorem liveAt : ∀ (w : Fin cfg0.W) (t : Fin cfg0.N), cfg0.idle w (grid0.coords t) = false := fun _ _ => rfl

/-! ## The staging and scratch memrefs -/

/-- One staging buffer of the output window, through which its contents are stated. -/
abbrev VO : View sig .tc .vmem S400x128 .f32 := (Memref.whole cc0_stg4_0 : Memref sig .tc .vmem S400x128 .f32).view
abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S200x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S200x10000 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S400x128 .f32 := win0_4.stage (cfg0.slots t 4)
abbrev hs4 (t : Fin cfg0.N) : (ms4 t).IsWhole := hstage0_4 ((cfg0.slots t 4).cast nbuf0_4)
/-- The scratch operand holding x · W. -/
abbrev scM : Memref sig .tc .vmem S10000x128 .f32 := Memref.whole cc0_scratch0
abbrev VS : View sig .tc .vmem S10000x128 .f32 := scM.view

/-- The region invariant of a kernel that names nothing between points, with the scratch operand as a memref owned
    at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The program is the region alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main (fun c => rfl)

end Cert.KernelIdeal.Layer

end
-- ==== Proof.KI.RunA.lean ====
/-
  The body at the first grid point, where its branch is taken: it multiplies x by W into the scratch buffer, reads the
  product back, and stores max(A-block · product, 0) for each of its two blocks of A into the two halves of the output
  buffer. Stated on any whole memrefs; the pieces the stores leave are found by running the body.
-/
import proofs.«144753_g33036888441476_cont_sun_m_698_10_alg».proof.Proof.KI.Setup

set_option maxRecDepth 16384

noncomputable section

namespace Cert.KernelIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the stores leave in the output's staging memref and in the scratch, as pieces (last first), when the
    branch is taken, with the proof that from the inputs' memrefs at their contents, the output's and the scratch at
    anything, the body runs to a continuation holding the inputs as they were and those pieces written. -/
noncomputable def kernelRunA (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S400x128 .f32) (harg5 : arg5.IsWhole) (arg6 : Memref sig .tc .vmem S10000x128 .f32) (harg6 : arg6.IsWhole) (hc0 : cond0 i)
    (x0 : Vec F S10000x128 .f32) (x1 : Vec F S200x10000 .f32) (x2 : Vec F S200x10000 .f32) (x3 : Vec F S128x128 .f32) :
    Σ' (L4 : List (View.Piece (Elt F) S400x128 .f32)), { LS : List (View.Piece (Elt F) S10000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS)) -∗ K ⟨⟩))
          ⊢ wp frame (wpE (defs₀ (F := F)) Variants.none c none) E (cc0__gcn_kernel i arg1 harg1 arg2 harg2 arg3 harg3 arg4 harg4 arg5 harg5 arg6 harg6) K } := by
  refine ⟨?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds, %fs, -, HS⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS

end Cert.KernelIdeal.Layer

end
-- ==== Proof.KI.RunB.lean ====
/-
  The body at every later grid point, where its branch is not taken: the scratch buffer still holds x · W, which it
  reads and leaves as it is, and it stores max(A-block · product, 0) for each of its two blocks of A into the two
  halves of the output buffer.
-/
import proofs.«144753_g33036888441476_cont_sun_m_698_10_alg».proof.Proof.KI.RunA

set_option maxRecDepth 16384

noncomputable section

namespace Cert.KernelIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the stores leave in the output's staging memref, as pieces (last first), when the branch is not taken, with
    the proof that from the inputs' memrefs and the scratch at their contents, the output's at anything, the body runs
    to a continuation holding the inputs and the scratch as they were and those pieces written. -/
noncomputable def kernelRunB (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S400x128 .f32) (harg5 : arg5.IsWhole) (arg6 : Memref sig .tc .vmem S10000x128 .f32) (harg6 : arg6.IsWhole) (hc0 : ¬cond0 i)
    (x0 : Vec F S10000x128 .f32) (x1 : Vec F S200x10000 .f32) (x2 : Vec F S200x10000 .f32) (x3 : Vec F S128x128 .f32) (xs : Vec F S10000x128 .f32) :
    { L4 : List (View.Piece (Elt F) S400x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xs) -∗ K ⟨⟩))
          ⊢ wp frame (wpE (defs₀ (F := F)) Variants.none c none) E (cc0__gcn_kernel i arg1 harg1 arg2 harg2 arg3 harg3 arg4 harg4 arg5 harg5 arg6 harg6) K } := by
  refine ⟨?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg1.eq_unread hf0; obtain rfl := harg2.eq_unread hf1; obtain rfl := harg3.eq_unread hf2; obtain rfl := harg4.eq_unread hf3; obtain rfl := harg6.eq_unread hfs
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; isplitr; · ipureintro; exact harg6.read_unread _
    iexact HS

end Cert.KernelIdeal.Layer

end
-- ==== Proof.KI.Frame.lean ====
/-
  The kernel's run over the whole grid. After point t the output's staging buffer holds the two halves the body
  stored there, and the scratch buffer holds x · W: stored at the first point, read and left alone at every later one.
  From the body's two runs this module states what both buffers hold point by point, the region invariant that
  carries the scratch from point to point, the body obligation, and the run of the program. The two windows on A
  each hold half of the array's share, so that both may read it at once.
-/
import proofs.«144753_g33036888441476_cont_sun_m_698_10_alg».proof.Proof.KI.RunB

set_option maxRecDepth 16384

noncomputable section

namespace Cert.KernelIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The first point's stores tile the output's block, -/
theorem coverA (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S400x128 .f32) (harg5 : arg5.IsWhole) (arg6 : Memref sig .tc .vmem S10000x128 .f32) (harg6 : arg6.IsWhole) (hc0 : cond0 i)
    (x0 : Vec F S10000x128 .f32) (x1 : Vec F S200x10000 .f32) (x2 : Vec F S200x10000 .f32) (x3 : Vec F S128x128 .f32) (y : S400x128.Idx) :
    ∃ pc ∈ (kernelRunA c i arg1 harg1 arg2 harg2 arg3 harg3 arg4 harg4 arg5 harg5 arg6 harg6 hc0 x0 x1 x2 x3).1, y ∈ pc.1.set :=
  View.cover_of_tiledL (kernelRunA c i arg1 harg1 arg2 harg2 arg3 harg3 arg4 harg4 arg5 harg5 arg6 harg6 hc0 x0 x1 x2 x3).1 S200x128.size (by sl_kernel_rfl) y

/-- and leave in it their pieces read back. -/
def outA (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S400x128 .f32) (harg5 : arg5.IsWhole) (arg6 : Memref sig .tc .vmem S10000x128 .f32) (harg6 : arg6.IsWhole) (hc0 : cond0 i)
    (x0 : Vec F S10000x128 .f32) (x1 : Vec F S200x10000 .f32) (x2 : Vec F S200x10000 .f32) (x3 : Vec F S128x128 .f32) : Vec F S400x128 .f32 :=
  VO.read (Elt F) (VO.writes (Elt F) VO.junk (kernelRunA c i arg1 harg1 arg2 harg2 arg3 harg3 arg4 harg4 arg5 harg5 arg6 harg6 hc0 x0 x1 x2 x3).1)

/-- The first point's one store into the scratch covers it, -/
theorem scoverA (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S400x128 .f32) (harg5 : arg5.IsWhole) (arg6 : Memref sig .tc .vmem S10000x128 .f32) (harg6 : arg6.IsWhole) (hc0 : cond0 i)
    (x0 : Vec F S10000x128 .f32) (x1 : Vec F S200x10000 .f32) (x2 : Vec F S200x10000 .f32) (x3 : Vec F S128x128 .f32) (y : S10000x128.Idx) :
    ∃ pc ∈ (kernelRunA c i arg1 harg1 arg2 harg2 arg3 harg3 arg4 harg4 arg5 harg5 arg6 harg6 hc0 x0 x1 x2 x3).2.1, y ∈ pc.1.set :=
  View.cover_of_tiledL (kernelRunA c i arg1 harg1 arg2 harg2 arg3 harg3 arg4 harg4 arg5 harg5 arg6 harg6 hc0 x0 x1 x2 x3).2.1 S10000x128.size (by sl_kernel_rfl) y

/-- and leaves in it that piece read back. -/
def soutA (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S400x128 .f32) (harg5 : arg5.IsWhole) (arg6 : Memref sig .tc .vmem S10000x128 .f32) (harg6 : arg6.IsWhole) (hc0 : cond0 i)
    (x0 : Vec F S10000x128 .f32) (x1 : Vec F S200x10000 .f32) (x2 : Vec F S200x10000 .f32) (x3 : Vec F S128x128 .f32) : Vec F S10000x128 .f32 :=
  VS.read (Elt F) (VS.writes (Elt F) VS.junk (kernelRunA c i arg1 harg1 arg2 harg2 arg3 harg3 arg4 harg4 arg5 harg5 arg6 harg6 hc0 x0 x1 x2 x3).2.1)

/-- A later point's stores tile the output's block, -/
theorem coverB (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S400x128 .f32) (harg5 : arg5.IsWhole) (arg6 : Memref sig .tc .vmem S10000x128 .f32) (harg6 : arg6.IsWhole) (hc0 : ¬cond0 i)
    (x0 : Vec F S10000x128 .f32) (x1 : Vec F S200x10000 .f32) (x2 : Vec F S200x10000 .f32) (x3 : Vec F S128x128 .f32) (xs : Vec F S10000x128 .f32) (y : S400x128.Idx) :
    ∃ pc ∈ (kernelRunB c i arg1 harg1 arg2 harg2 arg3 harg3 arg4 harg4 arg5 harg5 arg6 harg6 hc0 x0 x1 x2 x3 xs).1, y ∈ pc.1.set :=
  View.cover_of_tiledL (kernelRunB c i arg1 harg1 arg2 harg2 arg3 harg3 arg4 harg4 arg5 harg5 arg6 harg6 hc0 x0 x1 x2 x3 xs).1 S200x128.size (by sl_kernel_rfl) y

/-- and leave in it their pieces read back. -/
def outB (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S400x128 .f32) (harg5 : arg5.IsWhole) (arg6 : Memref sig .tc .vmem S10000x128 .f32) (harg6 : arg6.IsWhole) (hc0 : ¬cond0 i)
    (x0 : Vec F S10000x128 .f32) (x1 : Vec F S200x10000 .f32) (x2 : Vec F S200x10000 .f32) (x3 : Vec F S128x128 .f32) (xs : Vec F S10000x128 .f32) : Vec F S400x128 .f32 :=
  VO.read (Elt F) (VO.writes (Elt F) VO.junk (kernelRunB c i arg1 harg1 arg2 harg2 arg3 harg3 arg4 harg4 arg5 harg5 arg6 harg6 hc0 x0 x1 x2 x3 xs).1)

/-! ## What the output's buffer and the scratch hold after each point -/

/-- After point `n`: the output's staging buffer, and the scratch. The first point fills the scratch; every later
    point hands on what it found there. -/
def outsAt (c : Dev nD) : (n : ℕ) → n < cfg0.N → Vec F S400x128 .f32 × Vec F S10000x128 .f32
  | 0, hn => (outA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) ((hcond0 ⟨0, hn⟩).mpr rfl) (iblk m c 0 ⟨0, hn⟩) (iblk m c 1 ⟨0, hn⟩) (iblk m c 2 ⟨0, hn⟩) (iblk m c 3 ⟨0, hn⟩),
      soutA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) ((hcond0 ⟨0, hn⟩).mpr rfl) (iblk m c 0 ⟨0, hn⟩) (iblk m c 1 ⟨0, hn⟩) (iblk m c 2 ⟨0, hn⟩) (iblk m c 3 ⟨0, hn⟩))
  | n + 1, hn => (outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => Nat.succ_ne_zero n ((hcond0 ⟨n + 1, hn⟩).mp h)) (iblk m c 0 ⟨n + 1, hn⟩) (iblk m c 1 ⟨n + 1, hn⟩) (iblk m c 2 ⟨n + 1, hn⟩) (iblk m c 3 ⟨n + 1, hn⟩) (outsAt c n (Nat.lt_of_succ_lt hn)).2,
      (outsAt c n (Nat.lt_of_succ_lt hn)).2)

theorem outsAt_first (c : Dev nD) (t : Fin cfg0.N) (h0 : t.val = 0) :
    outsAt m c t.val t.isLt = (outA c (grid0.coords t) (ms0 t) (hs0 t) (ms1 t) (hs1 t) (ms2 t) (hs2 t) (ms3 t) (hs3 t) (ms4 t) (hs4 t) scM (Memref.isWhole_whole _) ((hcond0 t).mpr h0) (iblk m c 0 t) (iblk m c 1 t) (iblk m c 2 t) (iblk m c 3 t),
      soutA c (grid0.coords t) (ms0 t) (hs0 t) (ms1 t) (hs1 t) (ms2 t) (hs2 t) (ms3 t) (hs3 t) (ms4 t) (hs4 t) scM (Memref.isWhole_whole _) ((hcond0 t).mpr h0) (iblk m c 0 t) (iblk m c 1 t) (iblk m c 2 t) (iblk m c 3 t)) := by
  obtain ⟨n, hn⟩ := t
  cases n with
  | zero => exact rfl
  | succ n => exact absurd h0 (Nat.succ_ne_zero n)

theorem outsAt_later (c : Dev nD) (t : Fin cfg0.N) (h0 : ¬t.val = 0) :
    outsAt m c t.val t.isLt = (outB c (grid0.coords t) (ms0 t) (hs0 t) (ms1 t) (hs1 t) (ms2 t) (hs2 t) (ms3 t) (hs3 t) (ms4 t) (hs4 t) scM (Memref.isWhole_whole _) (fun h => h0 ((hcond0 t).mp h)) (iblk m c 0 t) (iblk m c 1 t) (iblk m c 2 t) (iblk m c 3 t) (outsAt m c (t.val - 1) (Nat.lt_of_le_of_lt (Nat.sub_le _ _) t.isLt)).2,
      (outsAt m c (t.val - 1) (Nat.lt_of_le_of_lt (Nat.sub_le _ _) t.isLt)).2) := by
  obtain ⟨n, hn⟩ := t
  cases n with
  | zero => exact absurd rfl h0
  | succ n => exact rfl

/-! ## The region invariant -/

/-- The scoped buffers the pipeline does not stage are the scratch alone. -/
theorem scoped_eq (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

/-- Before the first point the scratch holds anything; before any later point, what the point before left. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => owns (c : Thread nD τ) scM fullShare ((outsAt m c n hn).2)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = owns (c : Thread nD τ) scM fullShare ((outsAt m c n hn).2) := rfl

theorem PhiS_pos (c : Dev nD) (n : ℕ) (h : n ≤ cfg0.N) (hz : n ≠ 0) :
    PhiS m c n h = owns (c : Thread nD τ) scM fullShare ((outsAt m c (n - 1) (by omega)).2) := by
  cases n with
  | zero => exact absurd rfl hz
  | succ n => rfl

/-! ## The proof data -/

/-- The arrays as the region finds them; after the body each input's buffer at its block and the output's at
    `outsAt`; the invariant `PhiS`; nothing owed; the two windows on A at one half of its share each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
  Φ t := PhiS m c t.val (Nat.le_of_lt_succ t.isLt)
  q w := match w with
    | ⟨1, _⟩ => fullShare.left
    | ⟨2, _⟩ => fullShare.right
    | _ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t.val t.isLt).1 := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0 (c : Dev nD) (t : Fin cfg0.N) :
    (dats m 0 c).leavesExact 0 t = owns (c : Thread nD τ) (ms0 t) fullShare ((dats m 0 c).after 0 t) := by
  unfold Dat.leavesExact; rw [liveAt 0 t]
theorem leaves1 (c : Dev nD) (t : Fin cfg0.N) :
    (dats m 0 c).leavesExact 1 t = owns (c : Thread nD τ) (ms1 t) fullShare ((dats m 0 c).after 1 t) := by
  unfold Dat.leavesExact; rw [liveAt 1 t]
theorem leaves2 (c : Dev nD) (t : Fin cfg0.N) :
    (dats m 0 c).leavesExact 2 t = owns (c : Thread nD τ) (ms2 t) fullShare ((dats m 0 c).after 2 t) := by
  unfold Dat.leavesExact; rw [liveAt 2 t]
theorem leaves3 (c : Dev nD) (t : Fin cfg0.N) :
    (dats m 0 c).leavesExact 3 t = owns (c : Thread nD τ) (ms3 t) fullShare ((dats m 0 c).after 3 t) := by
  unfold Dat.leavesExact; rw [liveAt 3 t]
theorem leaves4 (c : Dev nD) (t : Fin cfg0.N) :
    (dats m 0 c).leavesExact 4 t = owns (c : Thread nD τ) (ms4 t) fullShare ((dats m 0 c).after 4 t) := by
  unfold Dat.leavesExact; rw [liveAt 4 t]

set_option maxHeartbeats 4800000 in
/-- The body at any point: the inputs' buffers hold their blocks; at the first point the scratch holds anything and
    the body leaves x · W in it, at a later point the body finds there what the point before left and leaves it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, after0, after1, after2, after3, after4]
  by_cases hz : t.val = 0
  · rw [outsAt_first m c t hz]
    unfold outA soutA; (try dsimp only)
    rw [PhiS_castSucc m c t, PhiS_zero m c _ _ hz, scoped_eq]
    iintro ⟨HS, Ho, ⟨%d0, H0⟩, ⟨%d1, H1⟩, ⟨%d2, H2⟩, ⟨%d3, H3⟩, ⟨%d4, H4⟩⟩
    iapply ((kernelRunA c (grid0.coords t) _ _ _ _ _ _ _ _ _ _ _ _ ((hcond0 t).mpr hz) (iblk m c 0 t) (iblk m c 1 t) (iblk m c 2 t) (iblk m c 3 t)).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS]
    · unfold owns; iexists _; isplitr
      swap; · iexact HS
      ipureintro; exact View.read_writes_of_cover _ _ _ _ _ (scoverA c _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverA c _ _ _ _ _ _ _ _ _ _ _ _ _ _ _ _ _ _)
  · rw [outsAt_later m c t hz]
    unfold outB; (try dsimp only)
    rw [PhiS_castSucc m c t, PhiS_pos m c _ _ hz]
    iintro ⟨HS, Ho, ⟨%d0, H0⟩, ⟨%d1, H1⟩, ⟨%d2, H2⟩, ⟨%d3, H3⟩, ⟨%d4, H4⟩⟩
    iapply ((kernelRunB c (grid0.coords t) _ _ _ _ _ _ _ _ _ _ _ _ (fun h => hz ((hcond0 t).mp h)) (iblk m c 0 t) (iblk m c 1 t) (iblk m c 2 t) (iblk m c 3 t) _).2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, HS⟩
    isplitl [HS]; · iexact HS
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverB c _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

end Cert.KernelIdeal.Layer

end
-- ==== Proof.KI.Run.lean ====
/-
  The launch. The program is one region; its five windows stand on four arrays, the two windows that read A sharing
  one. At the region's entry A's buffer, held whole, is split into its two half shares, one per window, so that both
  windows may read A while neither may write it; the other arrays are held whole. The scratch enters the invariant at
  anything and is forgotten at the end. Every array ends at what the pipeline's write-backs make of it: an input as
  it was, the result overwritten block by block with what the body left.
-/
import proofs.«144753_g33036888441476_cont_sun_m_698_10_alg».proof.Proof.KI.Frame

set_option maxRecDepth 16384

noncomputable section

namespace Cert.KernelIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The four distinct buffers behind the five windows' arrays, one by one. -/
theorem arrBufs_list (Φ : Ref sig .tc → sProp 𝕄) :
    bigSep (Finset.univ.image (Pipeline.arrRef spec0)) Φ = iprop(Φ main_arg0 ∗ Φ main_arg1 ∗ Φ main_arg2 ∗ Φ main_v0) :=
  Idealize.SL.BI.bigSep_eq_bigSepL_of_eq [main_arg0, main_arg1, main_arg2, main_v0] (by decide) (by decide) Φ

/-- A window's array is a whole buffer, so holding it is holding that buffer. -/
theorem arr_at (c : Dev nD) (w : Fin cfg0.W) (q : PosShare TreeShare) (f : Buf (Elt F) ((cfg0.win w).arr.view.loc (c.tc : Thread nD τ))) :
    (((cfg0.win w).arr.view.loc (c.tc : Thread nD τ)) ↦[(cfg0.win w).arr.view.set]{q} f : sProp 𝕄)
      = (((c.tc : Thread nD τ).loc (Pipeline.arrRef spec0 w)) ↦{q} f : sProp 𝕄) := by
  rw [(arr_whole0 w).set_eq_univ]

/-- The windows' arrays at entry, one by one: A's two windows at a half share each, the others whole. -/
theorem arrays_entry (c : Dev nD) :
    (dats m 0 c).arrays ((dats m 0 c).arrAt · 0)
      = iprop((((c.tc : Thread nD τ).loc main_arg0) ↦{fullShare} V m c main_arg0)
          ∗ (((c.tc : Thread nD τ).loc main_arg1) ↦{fullShare.left} V m c main_arg1)
          ∗ (((c.tc : Thread nD τ).loc main_arg1) ↦{fullShare.right} V m c main_arg1)
          ∗ (((c.tc : Thread nD τ).loc main_arg2) ↦{fullShare} V m c main_arg2)
          ∗ (((c.tc : Thread nD τ).loc main_v0) ↦{fullShare} V m c main_v0)) := by
  unfold Dat.arrays
  rw [bigSep_W0, arr_at c 0, arr_at c 1, arr_at c 2, arr_at c 3, arr_at c 4]
  rfl

/-- The arrays' buffers, each whole at the full share at its entry contents, make the windows' arrays at entry: A's
    buffer in two half shares, one for each window on it. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrays_entry]
  unfold Pipeline.arrBufs
  rw [arrBufs_list]
  iintro ⟨H0, H1, H2, H3⟩
  ihave H1' := (pointsTo_share (PosShare.mem_left_op_right fullShare)).1 $$ H1
  icases H1' with ⟨H1a, H1b⟩
  isplitl [H0]; · iexact H0
  isplitl [H1a]; · iexact H1a
  isplitl [H1b]; · iexact H1b
  isplitl [H2]; · iexact H2
  iexact H3

/-- What the launch hands the region is the invariant before the first point, -/
theorem hin (c : Dev nD) :
    iprop(emp ∗ Pipeline.scopedRest (Ix := Unit) (Name := ℕ) (U := UR sig nD τ) (Lvl := ℕ) (Val := Elt F) spec0 c) ⊢ (dats m 0 c).Φ 0 := by
  rw [show (dats m 0 c).Φ 0 = PhiS m c 0 (Nat.zero_le _) from rfl, PhiS_zero m c 0 _ rfl]
  iintro ⟨-, H⟩; iexact H

/-- and after the last point the invariant gives the scratch back, its contents forgotten. -/
theorem hout (c : Dev nD) :
    (dats m 0 c).Φ (Fin.last cfg0.N) ⊢ iprop(emp ∗ Pipeline.scopedRest (Ix := Unit) (Name := ℕ) (U := UR sig nD τ) (Lvl := ℕ) (Val := Elt F) spec0 c) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 25 := N_0; omega), scoped_eq]
  iintro H; isplitr; · iempintro
  iexists _; iexact H

/-- Every buffer that is not scoped is an array of the pipeline. -/
theorem hX (c : Dev nD) :
    (Pipeline.unscopedRest (Ix := Unit) (Name := ℕ) (U := UR sig nD τ) (Lvl := ℕ) spec0 c (V m c) : sProp 𝕄) ⊢ iprop(emp ∗ emp) := by
  rw [unscopedRest0_eq]; iintro -; isplitr <;> iempintro

set_option backward.isDefEq.respectTransparency.types false in
/-- At the compiled mesh, for any float values, from any memory with zero counters: every weakly fair execution of the
    program terminates, and in every final state each window's array holds what the write-backs leave in it. -/
theorem run_main : θ_run defs (onTc (τ := τ) (main (F := F))) (s₀ m ρ)
    (fun r => ∀ (c : Dev nD) (w : Fin cfg0.W), r.2.mem ((cfg0.win w).arr.view.loc (c : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := BI.Entails.refl _)
    (V := V m) (hmain := hmain m Variants.none) (hsplit := hsplit m)
    (X := fun _ => iprop(emp)) (Y := fun _ => iprop(emp)) (Z := fun _ => iprop(emp))
    (hX := hX m) (hin := hin m) (hout := hout m)
    (QY := fun _ _ => True)
    (hY := fun c s' => by
      iintro ⟨-, -, HSI⟩; imodintro
      isplitr; · ipureintro; trivial
      iexact HSI)
    (hQ := fun _ h c w => (h c).1 w)

/-- The argument arrays end as they began: each is an input window's array, which no write-back touches. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c 0).trans ((dats m 0 c).arrAt_in 0 rfl _), (h c 1).trans ((dats m 0 c).arrAt_in 1 rfl _), (h c 3).trans ((dats m 0 c).arrAt_in 3 rfl _)⟩)
    (run_main m ρ)

end Cert.KernelIdeal.Layer

end
-- ==== Proof.Spec.lean ====
/-
  The layer as one function of its three arrays, on the extended reals: entry (p, q) of the result is
  max(Σ_k A(p, k) · (Σ_j x(k, j) · W(j, q)), 0) — the inner sum is entry (k, q) of x · W, the outer one entry (p, q)
  of A · (x · W). Both programs compute exactly this bracketing, so no law of arithmetic is needed to join them.
  The zero is kept as the float word both programs spell it with.
-/
import Idealize.ShloMosaic.Lib.ValueIdx
import Idealize.ShloMosaic.PureOps.Ideal

open scoped BigOperators

noncomputable section

namespace Cert.Layer

open Idealize.ShloMosaic Idealize.ShloMosaic.ValueIdx

/-- Entry (k, q) of x · W. -/
def hidden (x : FVec Ideal ⟨2, ![10000, 128]⟩ .f32) (w : FVec Ideal ⟨2, ![128, 128]⟩ .f32) (k : Fin 10000) (q : Fin 128) : EReal :=
  ∑ j : Fin 128, x (ix2 k j) * w (ix2 j q)

/-- max(A · (x · W), 0), entry by entry. -/
def layer (x : FVec Ideal ⟨2, ![10000, 128]⟩ .f32) (a : FVec Ideal ⟨2, ![10000, 10000]⟩ .f32) (w : FVec Ideal ⟨2, ![128, 128]⟩ .f32) :
    FVec Ideal ⟨2, ![10000, 128]⟩ .f32 :=
  fun i => max (∑ k : Fin 10000, a (ix2 (i 0) k) * hidden x w k (i 1)) (Ideal.ofBits .f32 0x00000000#32)

theorem layer_apply (x : FVec Ideal ⟨2, ![10000, 128]⟩ .f32) (a : FVec Ideal ⟨2, ![10000, 10000]⟩ .f32) (w : FVec Ideal ⟨2, ![128, 128]⟩ .f32)
    (p : Fin 10000) (q : Fin 128) :
    layer x a w (ix2 p q) = max (∑ k : Fin 10000, a (ix2 p k) * hidden x w k q) (Ideal.ofBits .f32 0x00000000#32) := rfl

end Cert.Layer

end
-- ==== Proof.LibMatmul.lean ====
/-
  A matrix product of two rank-2 arrays read at coordinates. For dimension numbers that contract the left operand's
  second axis against the right operand's first, keep the left rows and the right columns and have no batch axis,
  the entry (p, q) of the product is the sum over the contracted position j of lhs (p, j) · rhs (j, q): the left
  operand is read along row p, the right operand along column q. Both the matrix unit's product into a zero
  accumulator and the host's dot product are that sum on the extended reals.
-/
import Idealize.ShloMosaic.Lib.ValueIdx
import Idealize.ShloMosaic.PureOps.Ideal.Laws

open scoped BigOperators

namespace Idealize.ShloMosaic.ValueIdx

open Idealize.ShloMosaic

section RowsByColumns

variable {a k b : ℕ} (d : DotDims ⟨2, ![a, k]⟩ ⟨2, ![k, b]⟩ ⟨2, ![a, b]⟩)

/-- One contracted axis. -/
theorem dot_contr_rank (hl : d.lhsContracting = [1]) : d.contr.rank = 1 := by
  rw [d.rank_contr, hl]; rfl

/-- Its extent is the shared inner extent k. -/
theorem dot_contr_size (hl : d.lhsContracting = [1]) :
    d.contr.size ⟨0, by rw [dot_contr_rank d hl]; exact Nat.one_pos⟩ = k := by
  rw [d.size_contr 0 (by rw [hl]; exact Nat.one_pos), List.getElem_of_eq hl]
  rfl

/-- The contraction index is its one coordinate. -/
noncomputable def dotEquiv (hl : d.lhsContracting = [1]) : d.contr.Idx ≃ Fin k :=
  contrEquiv1 d k (dot_contr_rank d hl) (dot_contr_size d hl)

/-- The left operand is read at row p, contracted position j. -/
theorem dot_lhsIdx_ix2 (hl : d.lhsContracting = [1]) (hln : d.lhsNonContracting = [0]) (hlb : d.lhsBatch = [])
    (p : Fin a) (q : Fin b) (j : Fin k) :
    d.lhsIdx (ix2 p q) ((dotEquiv d hl).symm j) = ix2 p j := by
  funext ax
  apply Fin.ext
  match ax with
  | ⟨0, _⟩ =>
    have hnb : (0 : Fin 2) ∉ d.lhsBatch := by rw [hlb]; exact List.not_mem_nil
    have hn : (0 : Fin 2) ∈ d.lhsNonContracting := by rw [hln]; exact List.mem_singleton.mpr rfl
    show (d.lhsIdx (ix2 p q) ((dotEquiv d hl).symm j) (0 : Fin 2)).val = p.val
    unfold DotDims.lhsIdx
    rw [dif_neg hnb, dif_pos hn]
    simp only [Fin.val_cast]
    have key : ∀ (n : ℕ) (hn : n < (⟨2, ![a, b]⟩ : Shape).rank), n = 0 → ((ix2 p q) ⟨n, hn⟩).val = p.val :=
      fun n hn h => by subst h; rfl
    exact key _ _ (by simp [hlb, hln])
  | ⟨1, _⟩ =>
    show (d.lhsIdx (ix2 p q) ((dotEquiv d hl).symm j) (1 : Fin 2)).val = j.val
    rw [d.lhsIdx_val_of_single hl]
    exact contrEquiv1_symm_val d k (dot_contr_rank d hl) (dot_contr_size d hl) j

/-- The right operand is read at contracted position j, column q. -/
theorem dot_rhsIdx_ix2 (hl : d.lhsContracting = [1]) (hr : d.rhsContracting = [0]) (hln : d.lhsNonContracting = [0])
    (hrn : d.rhsNonContracting = [1]) (hlb : d.lhsBatch = []) (hrb : d.rhsBatch = [])
    (p : Fin a) (q : Fin b) (j : Fin k) :
    d.rhsIdx (ix2 p q) ((dotEquiv d hl).symm j) = ix2 j q := by
  funext ax
  apply Fin.ext
  match ax with
  | ⟨0, _⟩ =>
    show (d.rhsIdx (ix2 p q) ((dotEquiv d hl).symm j) (0 : Fin 2)).val = j.val
    rw [d.rhsIdx_val_of_single hr]
    exact contrEquiv1_symm_val d k (dot_contr_rank d hl) (dot_contr_size d hl) j
  | ⟨1, _⟩ =>
    have hnb : (1 : Fin 2) ∉ d.rhsBatch := by rw [hrb]; exact List.not_mem_nil
    have hn : (1 : Fin 2) ∈ d.rhsNonContracting := by rw [hrn]; exact List.mem_singleton.mpr rfl
    show (d.rhsIdx (ix2 p q) ((dotEquiv d hl).symm j) (1 : Fin 2)).val = q.val
    unfold DotDims.rhsIdx
    rw [dif_neg hnb, dif_pos hn]
    simp only [Fin.val_cast]
    have key : ∀ (n : ℕ) (hn : n < (⟨2, ![a, b]⟩ : Shape).rank), n = 1 → ((ix2 p q) ⟨n, hn⟩).val = q.val :=
      fun n hn h => by subst h; rfl
    exact key _ _ (by simp [hlb, hln, hrn])

variable {φ₁ φ₂ : FTy}

/-- The matrix unit's product into the zero accumulator, at (p, q). -/
theorem matmul_zero_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (lhs : FVec Ideal ⟨2, ![a, k]⟩ φ₁) (rhs : FVec Ideal ⟨2, ![k, b]⟩ φ₂)
    (p : Fin a) (q : Fin b) :
    FloatOps.matmul d prec lhs rhs (constant ⟨2, ![a, b]⟩ .f32 0x00000000#32) (ix2 p q)
      = ∑ j : Fin k, lhs (ix2 p j) * rhs (ix2 j q) := by
  rw [Ideal.matmul_constant_zero_apply, ← Equiv.sum_comp (dotEquiv d hl).symm]
  refine Finset.sum_congr rfl fun j _ => ?_
  rw [dot_lhsIdx_ix2 d hl hln hlb p q j, dot_rhsIdx_ix2 d hl hr hln hrn hlb hrb p q j]

/-- The host's dot product, at (p, q). -/
theorem dotGeneral_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![a, k]⟩ φ₁) (rhs : FVec Ideal ⟨2, ![k, b]⟩ φ₂)
    (p : Fin a) (q : Fin b) :
    FloatOps.dotGeneral d prec sched lhs rhs (ix2 p q) = ∑ j : Fin k, lhs (ix2 p j) * rhs (ix2 j q) := by
  rw [Ideal.dotGeneral_apply, ← Equiv.sum_comp (dotEquiv d hl).symm]
  refine Finset.sum_congr rfl fun j _ => ?_
  rw [dot_lhsIdx_ix2 d hl hln hlb p q j, dot_rhsIdx_ix2 d hl hr hln hrn hlb hrb p q j]

end RowsByColumns

end Idealize.ShloMosaic.ValueIdx
-- ==== Proof.KI.Value.lean ====
/-
  What the kernel computes, on the extended reals. The scratch holds x · W from the first point on; at point t the
  output's buffer holds, in its rows 0 … 199, max(A-block(2t) · (x · W), 0) and, in its rows 200 … 399, the same for
  block 2t + 1 — that is, rows 400t … 400t + 399 of max(A · (x · W), 0). The 25 blocks written back tile the result
  array, which therefore ends holding the whole layer.
-/
import proofs.«144753_g33036888441476_cont_sun_m_698_10_alg».proof.Proof.KI.Run
import proofs.«144753_g33036888441476_cont_sun_m_698_10_alg».proof.Proof.Spec
import proofs.«144753_g33036888441476_cont_sun_m_698_10_alg».proof.Proof.LibMatmul
import Idealize.ShloMosaic.Lib.Pipeline.Value

set_option maxRecDepth 16384

noncomputable section

namespace Cert.KernelIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx
open scoped BigOperators

theorem hz : (![0, 0] : Fin 2 → Nat) = fun _ => 0 := funext fun a => by fin_cases a <;> rfl

/-! ## What each case leaves, as terms of the body's arithmetic -/

/-- The two halves a point stores into the output's buffer, from the scratch contents `h` and the point's two blocks
    of A (the later store first). -/
def halves (h : Vec F S10000x128 .f32) (a0 a1 : Vec F S200x10000 .f32) : List (View.Piece (Elt F) S400x128 .f32) :=
  [⟨Rect.unit (s := S400x128) ![200, 0] S200x128.size inb_S400x128_S200x128_200_0, k0_pay3 h a1⟩,
   ⟨Rect.unit (s := S400x128) ![0, 0] S200x128.size inb_S400x128_S200x128_0_0, k0_pay2 h a0⟩]

/-- The first point leaves x · W in the scratch. -/
theorem soutA_eq (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S400x128 .f32) (harg5 : arg5.IsWhole) (arg6 : Memref sig .tc .vmem S10000x128 .f32) (harg6 : arg6.IsWhole) (hc0 : cond0 i)
    (x0 : Vec F S10000x128 .f32) (x1 : Vec F S200x10000 .f32) (x2 : Vec F S200x10000 .f32) (x3 : Vec F S128x128 .f32) :
    soutA c i arg1 harg1 arg2 harg2 arg3 harg3 arg4 harg4 arg5 harg5 arg6 harg6 hc0 x0 x1 x2 x3 = k0_pay1 x0 x3 := by
  unfold soutA
  rw [View.read_writes_eq_canon _ _ _ (scoverA c i arg1 harg1 arg2 harg2 arg3 harg3 arg4 harg4 arg5 harg5 arg6 harg6 hc0 x0 x1 x2 x3)]
  unfold kernelRunA
  dsimp only
  try sl_unfold_words
  rw [View.canon_unit_zero hz]
  simp only [View.readAt_eq_ld, harg1.read_unread, harg4.read_unread, View.ld_unit_zero (S := S10000x128) hz, View.ld_unit_zero (S := S128x128) hz]

/-- The first point leaves in the output's buffer the two halves computed from the product it has just stored. -/
theorem outA_eq (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S400x128 .f32) (harg5 : arg5.IsWhole) (arg6 : Memref sig .tc .vmem S10000x128 .f32) (harg6 : arg6.IsWhole) (hc0 : cond0 i)
    (x0 : Vec F S10000x128 .f32) (x1 : Vec F S200x10000 .f32) (x2 : Vec F S200x10000 .f32) (x3 : Vec F S128x128 .f32) :
    outA c i arg1 harg1 arg2 harg2 arg3 harg3 arg4 harg4 arg5 harg5 arg6 harg6 hc0 x0 x1 x2 x3 = View.canon (halves (k0_pay1 x0 x3) x1 x2) := by
  unfold outA
  rw [View.read_writes_eq_canon _ _ _ (coverA c i arg1 harg1 arg2 harg2 arg3 harg3 arg4 harg4 arg5 harg5 arg6 harg6 hc0 x0 x1 x2 x3)]
  unfold kernelRunA
  dsimp only
  try sl_unfold_words
  rw [View.readCov_unit_zero (S := S10000x128) _ hz]
  simp only [View.readAt_eq_ld, harg1.read_unread, harg2.read_unread, harg3.read_unread, harg4.read_unread, View.ld_unit_zero (S := S10000x128) hz, View.ld_unit_zero (S := S128x128) hz, View.ld_unit_zero (S := S200x10000) hz]
  rfl

/-- A later point leaves the two halves computed from what the scratch held. -/
theorem outB_eq (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S400x128 .f32) (harg5 : arg5.IsWhole) (arg6 : Memref sig .tc .vmem S10000x128 .f32) (harg6 : arg6.IsWhole) (hc0 : ¬cond0 i)
    (x0 : Vec F S10000x128 .f32) (x1 : Vec F S200x10000 .f32) (x2 : Vec F S200x10000 .f32) (x3 : Vec F S128x128 .f32) (xs : Vec F S10000x128 .f32) :
    outB c i arg1 harg1 arg2 harg2 arg3 harg3 arg4 harg4 arg5 harg5 arg6 harg6 hc0 x0 x1 x2 x3 xs = View.canon (halves xs x1 x2) := by
  unfold outB
  rw [View.read_writes_eq_canon _ _ _ (coverB c i arg1 harg1 arg2 harg2 arg3 harg3 arg4 harg4 arg5 harg5 arg6 harg6 hc0 x0 x1 x2 x3 xs)]
  unfold kernelRunB
  dsimp only
  try sl_unfold_words
  simp only [View.readAt_eq_ld, harg2.read_unread, harg3.read_unread, harg6.read_unread, View.ld_unit_zero (S := S10000x128) hz, View.ld_unit_zero (S := S200x10000) hz]
  rfl

/-! ## The scratch and the output's buffer after each point -/

/-- The first grid point. -/
abbrev t0 : Fin cfg0.N := ⟨0, by rw [show cfg0.N = 25 from N_0]; decide⟩

/-- After every point the scratch holds the product of the first point's blocks of x and W. -/
theorem scratch_first (c : Dev nD) (hn : 0 < cfg0.N) :
    soutA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) ((hcond0 ⟨0, hn⟩).mpr rfl) (iblk m c 0 ⟨0, hn⟩) (iblk m c 1 ⟨0, hn⟩) (iblk m c 2 ⟨0, hn⟩) (iblk m c 3 ⟨0, hn⟩) = k0_pay1 (iblk m c 0 t0) (iblk m c 3 t0) :=
  soutA_eq c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) ((hcond0 ⟨0, hn⟩).mpr rfl) (iblk m c 0 ⟨0, hn⟩) (iblk m c 1 ⟨0, hn⟩) (iblk m c 2 ⟨0, hn⟩) (iblk m c 3 ⟨0, hn⟩)

set_option maxHeartbeats 400000 in
theorem scratch_at (c : Dev nD) (t : Fin cfg0.N) : (outsAt m c t.val t.isLt).2 = k0_pay1 (iblk m c 0 t0) (iblk m c 3 t0) := by
  obtain ⟨n, hn⟩ := t
  induction n with
  | zero =>
    rw [outsAt_first m c ⟨0, hn⟩ rfl]
    dsimp only
    exact scratch_first m c hn
  | succ n ih =>
    rw [outsAt_later m c ⟨n + 1, hn⟩ (Nat.succ_ne_zero n)]
    dsimp only
    exact ih (Nat.lt_of_succ_lt hn)

set_option maxHeartbeats 400000 in
/-- After point `t` the output's buffer holds the two halves computed from that product and the point's blocks of A. -/
theorem out_at (c : Dev nD) (t : Fin cfg0.N) :
    (outsAt m c t.val t.isLt).1 = View.canon (halves (k0_pay1 (iblk m c 0 t0) (iblk m c 3 t0)) (iblk m c 1 t) (iblk m c 2 t)) := by
  by_cases hz0 : t.val = 0
  · rw [outsAt_first m c t hz0]
    dsimp only
    obtain rfl : t = t0 := Fin.ext hz0
    exact outA_eq c (grid0.coords t0) (ms0 t0) (hs0 t0) (ms1 t0) (hs1 t0) (ms2 t0) (hs2 t0) (ms3 t0) (hs3 t0) (ms4 t0) (hs4 t0) scM (Memref.isWhole_whole _) ((hcond0 t0).mpr hz0) (iblk m c 0 t0) (iblk m c 1 t0) (iblk m c 2 t0) (iblk m c 3 t0)
  · rw [outsAt_later m c t hz0]
    dsimp only
    rw [scratch_at m c ⟨t.val - 1, Nat.lt_of_le_of_lt (Nat.sub_le _ _) t.isLt⟩]
    exact outB_eq c (grid0.coords t) (ms0 t) (hs0 t) (ms1 t) (hs1 t) (ms2 t) (hs2 t) (ms3 t) (hs3 t) (ms4 t) (hs4 t) scM (Memref.isWhole_whole _) (fun h => hz0 ((hcond0 t).mp h)) (iblk m c 0 t) (iblk m c 1 t) (iblk m c 2 t) (iblk m c 3 t) (k0_pay1 (iblk m c 0 t0) (iblk m c 3 t0))

/-! ## The two halves read at an entry -/

/-- A row of the first half is a row of the first block's payload; -/
theorem halves_lo (h : Vec F S10000x128 .f32) (a0 a1 : Vec F S200x10000 .f32) (y : S400x128.Idx) (r : Fin 200) (q : Fin 128)
    (hy0 : (y 0).val = r.val) (hy1 : (y 1).val = q.val) :
    View.canon (halves h a0 a1) y = k0_pay2 h a0 (ix2 r q) := by
  unfold halves
  rw [View.canon_cons_of_not_mem _ _ (by
    rw [Rect.mem_set_unit]; intro hm
    have := (hm 0).1
    have e : (![200, 0] : Fin 2 → ℕ) 0 = 200 := rfl
    rw [e] at this
    have := r.isLt; omega)]
  have ey : y = (Rect.unit (s := S400x128) ![0, 0] S200x128.size inb_S400x128_S200x128_0_0).emb (ix2 r q) := by
    funext a; apply Fin.ext
    match a with
    | ⟨0, _⟩ => rw [Rect.emb_apply]; show (y 0).val = 0 + 1 * r.val; omega
    | ⟨1, _⟩ => rw [Rect.emb_apply]; show (y 1).val = 0 + 1 * q.val; omega
  rw [ey]
  exact View.canon_cons_emb _ _ _ _

/-- a row of the second half is a row of the second block's payload. -/
theorem halves_hi (h : Vec F S10000x128 .f32) (a0 a1 : Vec F S200x10000 .f32) (y : S400x128.Idx) (r : Fin 200) (q : Fin 128)
    (hy0 : (y 0).val = 200 + r.val) (hy1 : (y 1).val = q.val) :
    View.canon (halves h a0 a1) y = k0_pay3 h a1 (ix2 r q) := by
  unfold halves
  have ey : y = (Rect.unit (s := S400x128) ![200, 0] S200x128.size inb_S400x128_S200x128_200_0).emb (ix2 r q) := by
    funext a; apply Fin.ext
    match a with
    | ⟨0, _⟩ => rw [Rect.emb_apply]; show (y 0).val = 200 + 1 * r.val; omega
    | ⟨1, _⟩ => rw [Rect.emb_apply]; show (y 1).val = 0 + 1 * q.val; omega
  rw [ey]
  exact View.canon_cons_emb _ _ _ _

end Cert.KernelIdeal.Layer

end
-- ==== Proof.KI.ValueIdeal.lean ====
/-
  The kernel's result on the extended reals. Each payload of the body is read at an entry: x · W as the inner sum,
  a block of A times that product as the outer sum, the maximum with zero entry by entry. Each window's block is read
  off its array: row r of block 2t of A is row 400t + r of A, row r of block 2t + 1 is row 400t + 200 + r, and the
  blocks of x and W are the whole arrays. So what point t writes back is rows 400t … 400t + 399 of the layer, and the
  25 write-backs tile the result array.
-/
import proofs.«144753_g33036888441476_cont_sun_m_698_10_alg».proof.Proof.KI.Value

set_option maxRecDepth 16384

noncomputable section

namespace Cert.KernelIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx
open scoped BigOperators

/-! ## The payloads at an entry -/

/-- Entry (k, q) of the product the scratch holds. -/
theorem pay1_apply (x : Vec Ideal S10000x128 .f32) (w : Vec Ideal S128x128 .f32) (k : Fin 10000) (q : Fin 128) :
    k0_pay1 (F := Ideal) x w (ix2 k q) = Cert.Layer.hidden x w k q := by
  unfold k0_pay1
  rw [shapeCast_self]
  exact matmul_zero_ix2 dot_S10000x128_S128x128_S10000x128_1_0_0_1_n_n rfl rfl rfl rfl rfl rfl none x w k q

/-- Entry (r, q) of a half: the maximum with zero of row r of the block of A times the scratch's column q. -/
theorem pay2_apply (h : Vec Ideal S10000x128 .f32) (a0 : Vec Ideal S200x10000 .f32) (r : Fin 200) (q : Fin 128) :
    k0_pay2 (F := Ideal) h a0 (ix2 r q) = max (∑ k : Fin 10000, a0 (ix2 r k) * h (ix2 k q)) (Ideal.ofBits .f32 0x00000000#32) := by
  unfold k0_pay2
  exact congrArg (fun z => max z (Ideal.ofBits .f32 0x00000000#32))
    (matmul_zero_ix2 dot_S200x10000_S10000x128_S200x128_1_0_0_1_n_n rfl rfl rfl rfl rfl rfl none (φ₁ := .f32) (φ₂ := .f32) a0 h r q)

theorem pay3_apply (h : Vec Ideal S10000x128 .f32) (a1 : Vec Ideal S200x10000 .f32) (r : Fin 200) (q : Fin 128) :
    k0_pay3 (F := Ideal) h a1 (ix2 r q) = max (∑ k : Fin 10000, a1 (ix2 r k) * h (ix2 k q)) (Ideal.ofBits .f32 0x00000000#32) := by
  unfold k0_pay3
  exact congrArg (fun z => max z (Ideal.ofBits .f32 0x00000000#32))
    (matmul_zero_ix2 dot_S200x10000_S10000x128_S200x128_1_0_0_1_n_n rfl rfl rfl rfl rfl rfl none (φ₁ := .f32) (φ₂ := .f32) a1 h r q)

/-! ## The windows' blocks read off their arrays -/

variable (m : (ℓ : Loc nD τ sig) → Buf (Elt Ideal) ℓ)

/-- Where each window's block sits at point t: x and W whole, A's two blocks at 2t and 2t + 1, the result's at t. -/
theorem idx_facts : ∀ t : Fin cfg0.N,
    (win0_0.index t 0 = 0 ∧ win0_0.index t 1 = 0) ∧ (win0_1.index t 0 = 2 * t.val ∧ win0_1.index t 1 = 0)
      ∧ (win0_2.index t 0 = 2 * t.val + 1 ∧ win0_2.index t 1 = 0) ∧ (win0_3.index t 0 = 0 ∧ win0_3.index t 1 = 0)
      ∧ (win0_4.index t 0 = t.val ∧ win0_4.index t 1 = 0) :=
  (by decide +kernel : ∀ t : Fin grid0.N,
    (win0_0.index t 0 = 0 ∧ win0_0.index t 1 = 0) ∧ (win0_1.index t 0 = 2 * t.val ∧ win0_1.index t 1 = 0)
      ∧ (win0_2.index t 0 = 2 * t.val + 1 ∧ win0_2.index t 1 = 0) ∧ (win0_3.index t 0 = 0 ∧ win0_3.index t 1 = 0)
      ∧ (win0_4.index t 0 = t.val ∧ win0_4.index t 1 = 0))

theorem iblk0_apply (c : Dev nD) (t : Fin cfg0.N) (y : S10000x128.Idx) :
    (iblk m c 0 t : Vec Ideal S10000x128 .f32) y = (m ((c : Thread nD τ).loc main_arg0) : S10000x128.Idx → Elt Ideal .f32) y := by
  obtain ⟨⟨h0, h1⟩, -⟩ := idx_facts t
  unfold iblk
  rw [View.read_apply]
  show V m c main_arg0 _ = m (c.tc.loc main_arg0) _
  unfold V
  congr 1
  funext a
  apply Fin.ext
  match a with
  | ⟨0, _⟩ => show win0_0.index t 0 * 10000 + 1 * (y 0).val = (y 0).val; rw [h0]; omega
  | ⟨1, _⟩ => show win0_0.index t 1 * 128 + 1 * (y 1).val = (y 1).val; rw [h1]; omega

theorem iblk3_apply (c : Dev nD) (t : Fin cfg0.N) (y : S128x128.Idx) :
    (iblk m c 3 t : Vec Ideal S128x128 .f32) y = (m ((c : Thread nD τ).loc main_arg2) : S128x128.Idx → Elt Ideal .f32) y := by
  obtain ⟨-, -, -, ⟨h0, h1⟩, -⟩ := idx_facts t
  unfold iblk
  rw [View.read_apply]
  show V m c main_arg2 _ = m (c.tc.loc main_arg2) _
  unfold V
  congr 1
  funext a
  apply Fin.ext
  match a with
  | ⟨0, _⟩ => show win0_3.index t 0 * 128 + 1 * (y 0).val = (y 0).val; rw [h0]; omega
  | ⟨1, _⟩ => show win0_3.index t 1 * 128 + 1 * (y 1).val = (y 1).val; rw [h1]; omega

theorem iblk1_apply (c : Dev nD) (t : Fin cfg0.N) (r : Fin 200) (k : Fin 10000) (p : Fin 10000) (hp : p.val = 400 * t.val + r.val) :
    (iblk m c 1 t : Vec Ideal S200x10000 .f32) (ix2 r k) = (m ((c : Thread nD τ).loc main_arg1) : S10000x10000.Idx → Elt Ideal .f32) (ix2 p k) := by
  obtain ⟨-, ⟨h0, h1⟩, -⟩ := idx_facts t
  unfold iblk
  rw [View.read_apply]
  show V m c main_arg1 _ = m (c.tc.loc main_arg1) _
  unfold V
  congr 1
  funext a
  apply Fin.ext
  match a with
  | ⟨0, _⟩ => show win0_1.index t 0 * 200 + 1 * r.val = p.val; rw [h0, hp]; omega
  | ⟨1, _⟩ => show win0_1.index t 1 * 10000 + 1 * k.val = k.val; rw [h1]; omega

theorem iblk2_apply (c : Dev nD) (t : Fin cfg0.N) (r : Fin 200) (k : Fin 10000) (p : Fin 10000) (hp : p.val = 400 * t.val + 200 + r.val) :
    (iblk m c 2 t : Vec Ideal S200x10000 .f32) (ix2 r k) = (m ((c : Thread nD τ).loc main_arg1) : S10000x10000.Idx → Elt Ideal .f32) (ix2 p k) := by
  obtain ⟨-, -, ⟨h0, h1⟩, -⟩ := idx_facts t
  unfold iblk
  rw [View.read_apply]
  show V m c main_arg1 _ = m (c.tc.loc main_arg1) _
  unfold V
  congr 1
  funext a
  apply Fin.ext
  match a with
  | ⟨0, _⟩ => show win0_2.index t 0 * 200 + 1 * r.val = p.val; rw [h0, hp]; omega
  | ⟨1, _⟩ => show win0_2.index t 1 * 10000 + 1 * k.val = k.val; rw [h1]; omega

/-! ## What a point writes back, and the result array -/

/-- The layer of the three argument arrays as the region finds them. -/
abbrev result (c : Dev nD) : Buf (Elt Ideal) ((c : Thread nD τ).loc main_v0) :=
  Cert.Layer.layer (m ((c : Thread nD τ).loc main_arg0)) (m ((c : Thread nD τ).loc main_arg1)) (m ((c : Thread nD τ).loc main_arg2))

/-- The scratch's product is x · W of the arguments. -/
theorem hidden_eq (c : Dev nD) (k : Fin 10000) (q : Fin 128) :
    k0_pay1 (F := Ideal) (iblk m c 0 t0) (iblk m c 3 t0) (ix2 k q)
      = Cert.Layer.hidden (m ((c : Thread nD τ).loc main_arg0)) (m ((c : Thread nD τ).loc main_arg2)) k q := by
  rw [pay1_apply]
  unfold Cert.Layer.hidden
  refine Finset.sum_congr rfl fun j _ => ?_
  rw [iblk0_apply, iblk3_apply]

/-- Entry y of the output's buffer after point t is entry (400t + y₀, y₁) of the layer. -/
theorem out_entry (c : Dev nD) (t : Fin cfg0.N) (y : S400x128.Idx) (p : Fin 10000) (q : Fin 128)
    (hp : p.val = 400 * t.val + (y 0).val) (hq : q.val = (y 1).val) :
    (outsAt m c t.val t.isLt).1 y = result m c (ix2 p q) := by
  rw [out_at]
  show _ = Cert.Layer.layer (m ((c : Thread nD τ).loc main_arg0)) (m ((c : Thread nD τ).loc main_arg1)) (m ((c : Thread nD τ).loc main_arg2)) (ix2 p q)
  rw [Cert.Layer.layer_apply]
  have hy0 : (y 0).val < 400 := (y 0).isLt
  by_cases hlo : (y 0).val < 200
  · rw [halves_lo _ _ _ y ⟨(y 0).val, hlo⟩ q rfl hq.symm, pay2_apply]
    congr 1
    refine Finset.sum_congr rfl fun k _ => ?_
    rw [iblk1_apply m c t _ k p (by rw [hp]), hidden_eq]
  · rw [halves_hi _ _ _ y ⟨(y 0).val - 200, by omega⟩ q (by show (y 0).val = 200 + ((y 0).val - 200); omega) hq.symm, pay3_apply]
    congr 1
    refine Finset.sum_congr rfl fun k _ => ?_
    rw [iblk2_apply m c t _ k p (by rw [hp]; show 400 * t.val + (y 0).val = 400 * t.val + 200 + ((y 0).val - 200); omega), hidden_eq]

/-- What point t writes back is the layer read through the result window's block at t. -/
theorem flushed_eq (c : Dev nD) (t : Fin cfg0.N) :
    (dats m 0 c).flushed 4 t = ((cfg0.win 4).blk t).view.read (Elt Ideal) (result m c) := by
  obtain ⟨-, -, -, -, ⟨h0, h1⟩⟩ := idx_facts t
  have hN : t.val < 25 := lt_of_lt_of_eq t.isLt (show cfg0.N = 25 from N_0)
  funext y
  rw [View.read_apply]
  show (dats m 0 c).after 4 t (fun a => ⟨(y a).val, _⟩) = _
  rw [after4]
  have hy0 : (y 0).val < 400 := (y 0).isLt
  have hy1 : (y 1).val < 128 := (y 1).isLt
  refine (out_entry m c t _ ⟨400 * t.val + (y 0).val, by omega⟩ ⟨(y 1).val, hy1⟩ rfl rfl).trans ?_
  congr 1
  funext a
  apply Fin.ext
  match a with
  | ⟨0, _⟩ => show 400 * t.val + (y 0).val = win0_4.index t 0 * 400 + 1 * (y 0).val; rw [h0]; omega
  | ⟨1, _⟩ => show (y 1).val = win0_4.index t 1 * 128 + 1 * (y 1).val; rw [h1]; omega

/-- Every entry of the result array lies in the block of the point that its row, divided by 400, names. -/
theorem cover (c : Dev nD) (i : ((cfg0.win 4).arr.view.loc (c.tc : Thread nD τ)).2.ty.Idx) :
    ∃ t : Fin cfg0.N, (cfg0.win 4).flush t = true ∧ i ∈ ((cfg0.win 4).blk t).view.set := by
  have hi0 : (i 0 : Nat) < 10000 := (i 0).isLt
  have hi1 : (i 1 : Nat) < 128 := (i 1).isLt
  have hN : cfg0.N = 25 := N_0
  have hlt : (i 0 : Nat) / 400 < cfg0.N := by rw [hN]; omega
  obtain ⟨-, -, -, -, ⟨h0, h1⟩⟩ := idx_facts ⟨(i 0 : Nat) / 400, hlt⟩
  refine ⟨⟨(i 0 : Nat) / 400, hlt⟩, flush0_4 _, ?_⟩
  show i ∈ ((View.whole main_v0).slice (win0_4.rect ⟨(i 0 : Nat) / 400, hlt⟩)).set
  rw [View.set_slice_whole, Rect.mem_set_unit]
  intro a
  match a with
  | ⟨0, _⟩ =>
    show win0_4.index ⟨(i 0 : Nat) / 400, hlt⟩ 0 * 400 ≤ (i 0 : Nat) ∧ (i 0 : Nat) < win0_4.index ⟨(i 0 : Nat) / 400, hlt⟩ 0 * 400 + 400
    rw [h0]; show (i 0 : Nat) / 400 * 400 ≤ (i 0 : Nat) ∧ (i 0 : Nat) < (i 0 : Nat) / 400 * 400 + 400; omega
  | ⟨1, _⟩ =>
    show win0_4.index ⟨(i 0 : Nat) / 400, hlt⟩ 1 * 128 ≤ (i 1 : Nat) ∧ (i 1 : Nat) < win0_4.index ⟨(i 0 : Nat) / 400, hlt⟩ 1 * 128 + 128
    rw [h1]; omega

/-- The 25 blocks written back tile the result array, so it ends holding the layer. -/
theorem final (c : Dev nD) : (dats m 0 c).arrAt 4 cfg0.N = result m c :=
  (dats m 0 c).arrAt_eq_of_cover 4 (result m c) (fun t _ => flushed_eq m c t) (cover c)

/-- The run, read: the result array ends at the layer of the arguments, which end as they began. -/
theorem run (ρ : Dev nD → PrngReg) : θ_run defs (onTc (τ := τ) (main (F := Ideal))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨(h c 4).trans (final m c), (h c 0).trans ((dats m 0 c).arrAt_in 0 rfl _), (h c 1).trans ((dats m 0 c).arrAt_in 1 rfl _),
      (h c 3).trans ((dats m 0 c).arrAt_in 3 rfl _)⟩)
    (run_main m ρ)

end Cert.KernelIdeal.Layer

end
-- ==== Proof.RefLayer.lean ====
/-
  The reference computes the layer: its two host dot products are the two nested sums, and its maximum with a
  broadcast zero is the maximum with zero at every entry.
-/
import proofs.«144753_g33036888441476_cont_sun_m_698_10_alg».proof.Proof.Gen.ReferenceIdeal.Run
import proofs.«144753_g33036888441476_cont_sun_m_698_10_alg».proof.Proof.Spec
import proofs.«144753_g33036888441476_cont_sun_m_698_10_alg».proof.Proof.LibMatmul
import Idealize.ShloMosaic.Lib.Pipeline.Value

open scoped BigOperators

noncomputable section

namespace Cert.ReferenceIdeal.Layer

open Cert.ReferenceIdeal Cert.ReferenceIdeal.Gen Idealize.ShloMosaic Idealize.ShloMosaic.ValueIdx

/-- The reference's result term is the layer of its three arguments. -/
theorem result_eq (x : FVec Ideal S10000x128 .f32) (a : FVec Ideal S10000x10000 .f32) (w : FVec Ideal S128x128 .f32) :
    maximumf (Host.dotGeneral dot_S10000x10000_S10000x128_S10000x128_1_0_0_1_n_n none a (Host.dotGeneral dot_S10000x128_S128x128_S10000x128_1_0_0_1_n_n none x w))
        (broadcastInDim S10000x128 ![] bcast_S_S10000x128 (constant (F := Ideal) S_ .f32 0x00000000#32))
      = Cert.Layer.layer x a w := by
  funext i
  obtain ⟨p, q, rfl⟩ : ∃ (p : Fin 10000) (q : Fin 128), i = ix2 p q := ⟨i 0, i 1, eq_ix2 i⟩
  have hz : broadcastInDim S10000x128 ![] bcast_S_S10000x128 (constant (F := Ideal) S_ .f32 0x00000000#32) (ix2 p q) = Ideal.ofBits .f32 0x00000000#32 :=
    broadcastInDim_apply _ bcast_S_S10000x128 _ _ (fun a => a.elim0) (fun a => a.elim0)
  rw [Cert.Layer.layer_apply]
  show max (Host.dotGeneral dot_S10000x10000_S10000x128_S10000x128_1_0_0_1_n_n none a (Host.dotGeneral dot_S10000x128_S128x128_S10000x128_1_0_0_1_n_n none x w) (ix2 p q)) _ = _
  rw [hz]
  simp only [Host.dotGeneral]
  rw [dotGeneral_ix2 dot_S10000x10000_S10000x128_S10000x128_1_0_0_1_n_n rfl rfl rfl rfl rfl rfl]
  simp only [dotGeneral_ix2 dot_S10000x128_S128x128_S10000x128_1_0_0_1_n_n rfl rfl rfl rfl rfl rfl]
  rfl

end Cert.ReferenceIdeal.Layer

end
-- ==== Proof.lean ====
/-
  One graph-convolution layer: the kernel computes max(A · (x · W), 0) over a grid of 25 points, 400 rows of A at a
  time through two windows on A, keeping x · W in a scratch buffer it fills at the first point; the reference computes
  the same expression with two whole matrix products. On the extended reals both results are, entry (p, q),
  max(Σ_k A(p, k) · (Σ_j x(k, j) · W(j, q)), 0): the same bracketing on both sides, so no law of arithmetic and no
  finiteness of the inputs is used. The three runs: each program terminates without a fault and leaves its argument
  arrays as they were; the kernel's result array ends at the layer of its arguments, and so does the reference's.
  The idealized kernel is the kernel's own text read on the extended reals: nothing was rewritten.
-/
import proofs.«144753_g33036888441476_cont_sun_m_698_10_alg».proof.Defs
import proofs.«144753_g33036888441476_cont_sun_m_698_10_alg».proof.Proof.Gen.Kernel
import proofs.«144753_g33036888441476_cont_sun_m_698_10_alg».proof.Proof.Gen.KernelIdeal
import proofs.«144753_g33036888441476_cont_sun_m_698_10_alg».proof.Proof.Gen.ReferenceIdeal
import proofs.«144753_g33036888441476_cont_sun_m_698_10_alg».proof.Proof.Gen.ReferenceIdeal.Run
import proofs.«144753_g33036888441476_cont_sun_m_698_10_alg».proof.Proof.Gen.Pre_finite_inputs
import proofs.«144753_g33036888441476_cont_sun_m_698_10_alg».proof.Proof.K.Run
import proofs.«144753_g33036888441476_cont_sun_m_698_10_alg».proof.Proof.KI.ValueIdeal
import proofs.«144753_g33036888441476_cont_sun_m_698_10_alg».proof.Proof.RefLayer
import Idealize.ShloMosaic.Adequacy
import Idealize.ShloMosaic.Init

noncomputable section

namespace Cert.Proof

open Idealize.ShloMosaic Idealize.SL.Sem

/-- The kernel as printed runs to the end and leaves its arguments unchanged. -/
theorem frame_kernel : Cert.frame_Kernel := fun m ρ _ => Cert.Kernel.Layer.frame m ρ

/-- So does the kernel read on the extended reals. -/
theorem frame_kernelIdeal : Cert.frame_KernelIdeal := fun m ρ _ => Cert.KernelIdeal.Layer.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with the layer of those arguments. -/
theorem algebraic : Cert.algebraic_KernelIdeal_ReferenceIdeal := by
  intro m ρ m' ρ' _ hagree
  refine ⟨fun c => Cert.KernelIdeal.Layer.result m c, Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact Cert.ReferenceIdeal.Layer.result_eq _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
